-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16x8x8192 : Shape := ⟨4, ![32, 16, 8, 8192]⟩
abbrev S8192 : Shape := ⟨1, ![8192]⟩
abbrev S_ : Shape := ⟨0, ![]⟩

class Facts : Prop where
  bcast_S_S32x16x8x8192 : S_.BroadcastsInDim S32x16x8x8192 (![] : Fin 0 → Fin S32x16x8x8192.rank)
  reducesTo_S32x16x8x8192_S_d0_1_2_3 : S32x16x8x8192.ReducesTo [0, 1, 2, 3] S_
  h_S_ : 0 < S_.numel

variable [Facts]

def fn {F : FTy → Type} [FloatOps F] (main_arg0 : FVec F S32x16x8x8192 .f32) (main_arg1 : IVec S8192 1) : IVec S_ 1 :=
  let main_v0 : FVec F S32x16x8x8192 .f32 := Host.absf main_arg0
  let main_cst : FVec F S_ .f32 := constant S_ .f32 0x7F800000#32
  let main_v1 : FVec F S32x16x8x8192 .f32 := broadcastInDim S32x16x8x8192 ![] bcast_S_S32x16x8x8192 main_cst
  let main_v2 : IVec S32x16x8x8192 1 := cmpf .olt main_v0 main_v1
  let main_c : IVec S_ 1 := constantI S_ 1 1#1
  let main_v3 : IVec S_ 1 := (fun x v => Host.reduce IntOp.andi x v reducesTo_S32x16x8x8192_S_d0_1_2_3 h_S_) main_v2 main_c
  main_v3
-- ==== Kernel.lean ====
abbrev S32x16x8x8192 : Shape := ⟨4, ![32, 16, 8, 8192]⟩
abbrev S8192 : Shape := ⟨1, ![8192]⟩
abbrev S4096x8192 : Shape := ⟨2, ![4096, 8192]⟩
abbrev S1x8192 : Shape := ⟨2, ![1, 8192]⟩
abbrev S384x8192 : Shape := ⟨2, ![384, 8192]⟩

abbrev nBuf : Space → Nat
  | .hbm => 7
  | .vmem => 5
  | .smem => 0
  | _ => 0

abbrev bufTy : (tb : Table) → Fin (tcTables nBuf tb) → BufTy
  | .hbm, ⟨0, _⟩ => ⟨S32x16x8x8192, .f32⟩
  | .hbm, ⟨1, _⟩ => ⟨S8192, .i1⟩
  | .hbm, ⟨2, _⟩ => ⟨S4096x8192, .f32⟩
  | .hbm, ⟨3, _⟩ => ⟨S1x8192, .i1⟩
  | .hbm, ⟨4, _⟩ => ⟨S1x8192, .i32⟩
  | .hbm, ⟨5, _⟩ => ⟨S4096x8192, .f32⟩
  | .hbm, ⟨6, _⟩ => ⟨S32x16x8x8192, .f32⟩
  | .local _ .vmem, ⟨0, _⟩ => ⟨S1x8192, .i32⟩
  | .local _ .vmem, ⟨1, _⟩ => ⟨S384x8192, .f32⟩
  | .local _ .vmem, ⟨2, _⟩ => ⟨S384x8192, .f32⟩
  | .local _ .vmem, ⟨3, _⟩ => ⟨S384x8192, .f32⟩
  | .local _ .vmem, ⟨4, _⟩ => ⟨S384x8192, .f32⟩
  | _, _ => ⟨S32x16x8x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S384x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x16x8x8192_S4096x8192 : S32x16x8x8192.ShapeCasts S4096x8192
  shapeCasts_S8192_S1x8192 : S8192.ShapeCasts S1x8192
  natLt_1_32 : 1 < 32
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S384x8192_S384x8192_0_0 : ∀ a, (![0, 0] : Fin 2 → Nat) a + S384x8192.size a ≤ S384x8192.size a
  h_S384x8192 : 0 < S384x8192.numel
  shapeCasts_S384x8192_S384x8192 : S384x8192.ShapeCasts S384x8192
  broadcasts_S1x8192_S384x8192 : S1x8192.Broadcasts S384x8192
  shapeCasts_S4096x8192_S32x16x8x8192 : S4096x8192.ShapeCasts S32x16x8x8192
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x8192.size a
  hwx0_0 : ∀ i : grid0.Coords, EltTy.bits .i32 = 32 ∨ (Rect.block (s := S1x8192) S1x8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S384x8192.size a < S4096x8192.size a
  hwx0_1 : ∀ i : grid0.Coords, EltTy.bits .f32 = 32 ∨ (Rect.unit (s := S4096x8192) (fun a => cc0_transform_1 i a * S384x8192.size a) (fun a => (Pipeline.Clip.of (cc0_transform_1 i a) (S384x8192.size a) (S4096x8192.size a)).extent (S384x8192.size a)) fun a => Pipeline.Clip.inb (Pipeline.Clip.ok_of (hstart0_1 i a))).WholeWords (EltTy.packing .f32)
  hwxs0_1 : ∀ i : grid0.Coords, EltTy.bits .f32 = 32 ∨ (Rect.unit (s := S384x8192) (fun _ => 0) (fun a => (Pipeline.Clip.of (cc0_transform_1 i a) (S384x8192.size a) (S4096x8192.size a)).extent (S384x8192.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S384x8192.size a < S4096x8192.size a
  hwx0_2 : ∀ i : grid0.Coords, EltTy.bits .f32 = 32 ∨ (Rect.unit (s := S4096x8192) (fun a => cc0_transform_2 i a * S384x8192.size a) (fun a => (Pipeline.Clip.of (cc0_transform_2 i a) (S384x8192.size a) (S4096x8192.size a)).extent (S384x8192.size a)) fun a => Pipeline.Clip.inb (Pipeline.Clip.ok_of (hstart0_2 i a))).WholeWords (EltTy.packing .f32)
  hwxs0_2 : ∀ i : grid0.Coords, EltTy.bits .f32 = 32 ∨ (Rect.unit (s := S384x8192) (fun _ => 0) (fun a => (Pipeline.Clip.of (cc0_transform_2 i a) (S384x8192.size a) (S4096x8192.size a)).extent (S384x8192.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpec (Memref.whole main_v2) S1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S384x8192.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S384x8192.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x16x8x8192 : Shape := ⟨4, ![32, 16, 8, 8192]⟩
abbrev S8192 : Shape := ⟨1, ![8192]⟩
abbrev S_ : Shape := ⟨0, ![]⟩
abbrev S1x1x1x8192 : Shape := ⟨4, ![1, 1, 1, 8192]⟩

abbrev nBuf : Space → Nat
  | .hbm => 10
  | .vmem => 0
  | .smem => 0
  | _ => 0

abbrev bufTy : (tb : Table) → Fin (tcTables nBuf tb) → BufTy
  | .hbm, ⟨0, _⟩ => ⟨S32x16x8x8192, .f32⟩
  | .hbm, ⟨1, _⟩ => ⟨S8192, .i1⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S1x1x1x8192, .f32⟩
  | .hbm, ⟨8, _⟩ => ⟨S32x16x8x8192, .f32⟩
  | .hbm, ⟨9, _⟩ => ⟨S32x16x8x8192, .f32⟩
  | _, _ => ⟨S32x16x8x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S1x1x1x8192_3 : S8192.BroadcastsInDim S1x1x1x8192 (![3] : Fin 1 → Fin S1x1x1x8192.rank)
  bcast_S1x1x1x8192_S32x16x8x8192_0_1_2_3 : S1x1x1x8192.BroadcastsInDim S32x16x8x8192 (![0, 1, 2, 3] : Fin 4 → Fin S32x16x8x8192.rank)

variable [Facts₀]

class Facts : Prop extends Facts₀ where

variable [Facts]
-- ==== Proof.BodyBits.lean ====
/-
  The body of the masking kernel and the run of its pipeline, at any float instance.

  The image, viewed as a 4096 x 8192 matrix, is streamed through the kernel in eleven blocks of 384 rows; the
  last block has only 256 rows inside the matrix (10 * 384 + 256 = 4096), so its transfers are cut at the
  matrix's end and nothing is known of the remaining 128 rows of its staging buffer.  The mask row (1 x 8192
  words, one per column) is resident.  At every point the body multiplies each entry of the image block by the
  mask value of its column: an entrywise operation, so the rows inside the matrix of what it stores depend only
  on the rows inside the matrix of what it loaded.  That is all the pipeline asks of a window whose blocks may
  overhang the array.
-/
import proofs.«147102_g21311627723004_cont_8to1_607_5_alg».proof.Proof.Gen.Kernel.Frame
import proofs.«147102_g21311627723004_cont_8to1_607_5_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The product is entrywise in the image block -/

/-- The stored product at an entry depends on the image block at that entry only. -/
theorem product_congr (v0 : Vec F S1x8192 .i32) (v6 v6' : Vec F S384x8192 .f32) (y : S384x8192.Idx) (h : v6 y = v6' y) :
    k0_pay1 v0 v6 y = k0_pay1 v0 v6' y := by
  unfold k0_pay1
  simp only [shapeCast_self]
  show FloatOps.mulf (v6 y) _ = FloatOps.mulf (v6' y) _
  rw [h]

/-! ## The body's triple -/

set_option maxHeartbeats 1000000 in
/-- The body on whole staging buffers: the mask row's at contents `x0`, the image block's at `x1`, the result's at
    anything, runs to the first two as they were and the result's at the product of `x1` with the mask of `x0`. -/
theorem sound_kernel (c : Dev nD) (E : Set ℕ) (i : grid0.Coords)
    (arg1 : Memref sig .tc .vmem S1x8192 .i32) (harg1 : arg1.IsWhole)
    (arg2 : Memref sig .tc .vmem S384x8192 .f32) (harg2 : arg2.IsWhole)
    (arg3 : Memref sig .tc .vmem S384x8192 .f32) (harg3 : arg3.IsWhole)
    (x0 : Vec F S1x8192 .i32) (x1 : Vec F S384x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__mask_mul_body i arg1 harg1 arg2 harg2 arg3 harg3) K := by
  simp only [cc0__mask_mul_body_eq_skeleton]; unfold cc0__mask_mul_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (fun y => ⟨_, List.mem_singleton_self _, View.mem_set_unit_zero hz inb_S384x8192_S384x8192_0_0 y⟩),
    View.canon_unit_zero hz]
  simp only [View.readAt_eq_ld, View.ld_unit_zero (S := S1x8192) hz, View.ld_unit_zero (S := S384x8192) hz]

/-! ## The proof data -/

/-- The word that stands, in the proof data, for the rows of a staging buffer past the matrix's end. Nothing reads it. -/
abbrev pad : S384x8192.Idx → Elt F .f32 := fun _ => Scalar.ofBits .f32 0#32

/-- The image block of point `t` as a whole staging buffer: its rows inside the matrix, padded. -/
def imgBuf (c : Dev nD) (t : Fin cfg0.N) : S384x8192.Idx → Elt F .f32 :=
  win0_1.fill (grid0.coords t) pad (iblk m c 1 t)

/-- The proof data of the pipeline on core `c`: the arrays as the region finds them; after the body at point `t`
    the mask row's buffer at the mask row, the image's at the padded image block, the result's at their product;
    the invariant is the class's (scoped rest and generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => imgBuf m c t
    | ⟨2, _⟩ => k0_pay1 (iblk m c 0 t) (imgBuf m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = imgBuf m c t := by dsimp only [dats]
theorem after0_2 (c : Dev nD) (t : Fin cfg0.N) : (dats m 0 c).after 2 t = k0_pay1 (iblk m c 0 t) (imgBuf m c t) := by dsimp only [dats]

/-- The mask row's buffer holds the mask row at every point (fetched once, kept by the body). -/
theorem before0_0 (c : Dev nD) (t : Fin cfg0.N) (d) : (dats m 0 c).before 0 t d = iblk m c 0 t :=
  before0_0_of m (dats m 0 c) (A_eq m c 0) (after0_0 m c) t d

/-- The image's buffer was fetched at every point: the block's rows inside the matrix, anything past them. -/
theorem before0_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk
  rw [A_eq]

/-- The result's buffer was written back at every earlier point: it holds anything. -/
theorem before0_2 (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The body obligation -/

/-- Read through the result window's rows inside the matrix, a padded image block is the block itself. -/
theorem fill_at_rows {α : Type} (i : grid0.Coords) (d : S384x8192.Idx → α) (g : (win0_1.xblock i).Idx → α)
    (j : (win0_2.xblock i).Idx) : win0_1.fill i d g (win0_2.xinj i j) = g j :=
  win0_1.fill_xinj i d g j

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

/-- The body at any point. The image's buffer arrives at the block padded by some `d`, and leaves so; the result's
    leaves at the product over that, which on the rows inside the matrix is the product over the padded block of
    the proof data, the product being entrywise. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  have h1 : win0_1.cut (grid0.coords t) (imgBuf m c t) = iblk m c 1 t := win0_1.cut_fill _ _ _
  have h2 : win0_2.cut (grid0.coords t) (k0_pay1 (iblk m c 0 t) (win0_1.fill (grid0.coords t) d1 (iblk m c 1 t)))
      = win0_2.cut (grid0.coords t) (k0_pay1 (iblk m c 0 t) (imgBuf m c t)) := by
    funext j
    refine product_congr _ _ _ _ ?_
    unfold imgBuf
    rw [fill_at_rows, fill_at_rows]
  isplitl [H1]
  · iexists d1
    change _ ⊢ owns (c : Thread nD τ) (st0_1 t) fullShare (win0_1.fill (grid0.coords t) d1 (win0_1.cut (grid0.coords t) (imgBuf m c t)))
    rw [h1]; try iexact H1
  · iexists k0_pay1 (iblk m c 0 t) (win0_1.fill (grid0.coords t) d1 (iblk m c 1 t))
    change _ ⊢ owns (c : Thread nD τ) (st0_2 t) fullShare (win0_2.fill (grid0.coords t) _ (win0_2.cut (α := Elt F .f32) (grid0.coords t) (k0_pay1 (iblk m c 0 t) (imgBuf m c t))))
    rw [win0_2.fill_congr_cut (grid0.coords t) h2]; try iexact H2

/-- The library's body obligation, at every point, each clipped window's buffer stated on its rows inside the matrix. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdeal.lean ====
/-
  The body of the masking kernel and the run of its pipeline, at any float instance.

  The image, viewed as a 4096 x 8192 matrix, is streamed through the kernel in eleven blocks of 384 rows; the
  last block has only 256 rows inside the matrix (10 * 384 + 256 = 4096), so its transfers are cut at the
  matrix's end and nothing is known of the remaining 128 rows of its staging buffer.  The mask row (1 x 8192
  words, one per column) is resident.  At every point the body multiplies each entry of the image block by the
  mask value of its column: an entrywise operation, so the rows inside the matrix of what it stores depend only
  on the rows inside the matrix of what it loaded.  That is all the pipeline asks of a window whose blocks may
  overhang the array.
-/
import proofs.«147102_g21311627723004_cont_8to1_607_5_alg».proof.Proof.Gen.KernelIdeal.Frame
import proofs.«147102_g21311627723004_cont_8to1_607_5_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The product is entrywise in the image block -/

/-- The stored product at an entry depends on the image block at that entry only. -/
theorem product_congr (v0 : Vec F S1x8192 .i32) (v6 v6' : Vec F S384x8192 .f32) (y : S384x8192.Idx) (h : v6 y = v6' y) :
    k0_pay1 v0 v6 y = k0_pay1 v0 v6' y := by
  unfold k0_pay1
  simp only [shapeCast_self]
  show FloatOps.mulf (v6 y) _ = FloatOps.mulf (v6' y) _
  rw [h]

/-! ## The body's triple -/

set_option maxHeartbeats 1000000 in
/-- The body on whole staging buffers: the mask row's at contents `x0`, the image block's at `x1`, the result's at
    anything, runs to the first two as they were and the result's at the product of `x1` with the mask of `x0`. -/
theorem sound_kernel (c : Dev nD) (E : Set ℕ) (i : grid0.Coords)
    (arg1 : Memref sig .tc .vmem S1x8192 .i32) (harg1 : arg1.IsWhole)
    (arg2 : Memref sig .tc .vmem S384x8192 .f32) (harg2 : arg2.IsWhole)
    (arg3 : Memref sig .tc .vmem S384x8192 .f32) (harg3 : arg3.IsWhole)
    (x0 : Vec F S1x8192 .i32) (x1 : Vec F S384x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__mask_mul_body i arg1 harg1 arg2 harg2 arg3 harg3) K := by
  simp only [cc0__mask_mul_body_eq_skeleton]; unfold cc0__mask_mul_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (fun y => ⟨_, List.mem_singleton_self _, View.mem_set_unit_zero hz inb_S384x8192_S384x8192_0_0 y⟩),
    View.canon_unit_zero hz]
  simp only [View.readAt_eq_ld, View.ld_unit_zero (S := S1x8192) hz, View.ld_unit_zero (S := S384x8192) hz]

/-! ## The proof data -/

/-- The word that stands, in the proof data, for the rows of a staging buffer past the matrix's end. Nothing reads it. -/
abbrev pad : S384x8192.Idx → Elt F .f32 := fun _ => Scalar.ofBits .f32 0#32

/-- The image block of point `t` as a whole staging buffer: its rows inside the matrix, padded. -/
def imgBuf (c : Dev nD) (t : Fin cfg0.N) : S384x8192.Idx → Elt F .f32 :=
  win0_1.fill (grid0.coords t) pad (iblk m c 1 t)

/-- The proof data of the pipeline on core `c`: the arrays as the region finds them; after the body at point `t`
    the mask row's buffer at the mask row, the image's at the padded image block, the result's at their product;
    the invariant is the class's (scoped rest and generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => imgBuf m c t
    | ⟨2, _⟩ => k0_pay1 (iblk m c 0 t) (imgBuf m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = imgBuf m c t := by dsimp only [dats]
theorem after0_2 (c : Dev nD) (t : Fin cfg0.N) : (dats m 0 c).after 2 t = k0_pay1 (iblk m c 0 t) (imgBuf m c t) := by dsimp only [dats]

/-- The mask row's buffer holds the mask row at every point (fetched once, kept by the body). -/
theorem before0_0 (c : Dev nD) (t : Fin cfg0.N) (d) : (dats m 0 c).before 0 t d = iblk m c 0 t :=
  before0_0_of m (dats m 0 c) (A_eq m c 0) (after0_0 m c) t d

/-- The image's buffer was fetched at every point: the block's rows inside the matrix, anything past them. -/
theorem before0_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk
  rw [A_eq]

/-- The result's buffer was written back at every earlier point: it holds anything. -/
theorem before0_2 (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The body obligation -/

/-- Read through the result window's rows inside the matrix, a padded image block is the block itself. -/
theorem fill_at_rows {α : Type} (i : grid0.Coords) (d : S384x8192.Idx → α) (g : (win0_1.xblock i).Idx → α)
    (j : (win0_2.xblock i).Idx) : win0_1.fill i d g (win0_2.xinj i j) = g j :=
  win0_1.fill_xinj i d g j

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t)))))

/-- The body at any point. The image's buffer arrives at the block padded by some `d`, and leaves so; the result's
    leaves at the product over that, which on the rows inside the matrix is the product over the padded block of
    the proof data, the product being entrywise. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  have h1 : win0_1.cut (grid0.coords t) (imgBuf m c t) = iblk m c 1 t := win0_1.cut_fill _ _ _
  have h2 : win0_2.cut (grid0.coords t) (k0_pay1 (iblk m c 0 t) (win0_1.fill (grid0.coords t) d1 (iblk m c 1 t)))
      = win0_2.cut (grid0.coords t) (k0_pay1 (iblk m c 0 t) (imgBuf m c t)) := by
    funext j
    refine product_congr _ _ _ _ ?_
    unfold imgBuf
    rw [fill_at_rows, fill_at_rows]
  isplitl [H1]
  · iexists d1
    change _ ⊢ owns (c : Thread nD τ) (st0_1 t) fullShare (win0_1.fill (grid0.coords t) d1 (win0_1.cut (grid0.coords t) (imgBuf m c t)))
    rw [h1]; try iexact H1
  · iexists k0_pay1 (iblk m c 0 t) (win0_1.fill (grid0.coords t) d1 (iblk m c 1 t))
    change _ ⊢ owns (c : Thread nD τ) (st0_2 t) fullShare (win0_2.fill (grid0.coords t) _ (win0_2.cut (α := Elt F .f32) (grid0.coords t) (k0_pay1 (iblk m c 0 t) (imgBuf m c t))))
    rw [win0_2.fill_congr_cut (grid0.coords t) h2]; try iexact H2

/-- The library's body obligation, at every point, each clipped window's buffer stated on its rows inside the matrix. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  What both programs compute, as one function of the arguments.

  `pruned` holds one bit per column k < 8192; the mask value of a column is 0 where its bit is set and 1 where it
  is not; the result at (a, b, c, k) is the image there times the mask value of column k.
-/
import Idealize.ShloMosaic.PureOps
import Idealize.ShloMosaic.Lib.ValueIdx

noncomputable section

namespace Cert.MaskSpec

open Idealize.ShloMosaic Idealize.ShloMosaic.ValueIdx

variable {F : FTy → Type} [FloatOps F]

/-- The mask value of a column whose bit is `b`: the float words of 0 and of 1. -/
def keep (b : BitVec 1) : F .f32 :=
  Scalar.select b (FloatOps.ofBits .f32 0x00000000#32) (FloatOps.ofBits .f32 0x3F800000#32)

/-- The same choice made from the bit widened to a 32-bit word and tested against zero. -/
def keepWord (w : BitVec 32) : F .f32 :=
  Scalar.select (IntOp.cmpi .ne w 0#32) (FloatOps.ofBits .f32 0x00000000#32) (FloatOps.ofBits .f32 0x3F800000#32)

/-- A bit widened to 32 bits differs from zero exactly when it is set. -/
theorem widened_ne_zero : ∀ b : BitVec 1, IntOp.cmpi .ne (b.setWidth 32) 0#32 = b := by decide

theorem keepWord_widened (b : BitVec 1) : keepWord (F := F) (b.setWidth 32) = keep b := by
  unfold keepWord keep; rw [widened_ne_zero]

/-- The result: the image times the mask value of the entry's column. -/
def masked (img : (⟨4, ![32, 16, 8, 8192]⟩ : Shape).Idx → F .f32) (pruned : (⟨1, ![8192]⟩ : Shape).Idx → BitVec 1) :
    (⟨4, ![32, 16, 8, 8192]⟩ : Shape).Idx → F .f32 :=
  fun i => FloatOps.mulf (img i) (keep (pruned (ix1 (i 3))))

/-- The same over the image viewed as 4096 rows of 8192 columns and the mask bits held as a row of 32-bit words. -/
def maskedRows (img : (⟨2, ![4096, 8192]⟩ : Shape).Idx → F .f32) (msk : (⟨2, ![1, 8192]⟩ : Shape).Idx → BitVec 32) :
    (⟨2, ![4096, 8192]⟩ : Shape).Idx → F .f32 :=
  fun i => FloatOps.mulf (img i) (keepWord (msk (ix2 (0 : Fin 1) (i 1))))

end Cert.MaskSpec

end
-- ==== Proof.KernelValue.lean ====
/-
  What the masking kernel's result array holds after the run, as one function of the arguments.

  The matrix the pipeline writes: point `t` writes back rows 384 t .. of the product, as many as lie inside the
  matrix (384, and 256 at the last point), each entry the image's entry times the mask value of its column; the
  eleven blocks cover the 4096 rows, so the whole matrix ends as the entrywise product.  The lines before the
  region only re-lay the arguments (the image as 4096 rows, the bits as a row of 32-bit words) and the line after
  it re-lays the matrix as the result; an entry (a, b, c, k) sits in row (a * 16 + b) * 8 + c, column k.
-/
import proofs.«147102_g21311627723004_cont_8to1_607_5_alg».proof.Proof.BodyIdeal
import proofs.«147102_g21311627723004_cont_8to1_607_5_alg».proof.Proof.Spec
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.Body Cert.MaskSpec
open Idealize.ShloMosaic Idealize.ShloMosaic.TcCoe Idealize.SL.Sem Idealize.ShloMosaic.ValueIdx
open Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The stored product at an entry -/

/-- Entry `y` of what the body stores, `y` in column q: the image block's entry times the mask value of column q. -/
theorem product_apply (v0 : Vec F S1x8192 .i32) (v6 : Vec F S384x8192 .f32) (y : S384x8192.Idx) (q : Fin 8192) (hq : (y 1).val = q.val) :
    k0_pay1 v0 v6 y = FloatOps.mulf (v6 y) (keepWord (v0 (ix2 (0 : Fin 1) q))) := by
  unfold k0_pay1
  simp only [shapeCast_self]
  show FloatOps.mulf (v6 y) (broadcastTo S384x8192 _ broadcasts_S1x8192_S384x8192 y) = _
  rw [broadcastTo_apply _ broadcasts_S1x8192_S384x8192 y (ix2 (0 : Fin 1) q)
    (fun a => by
      match a with
      | ⟨0, _⟩ => rfl
      | ⟨1, _⟩ => show q.val = if (8192 : Nat) = 1 then 0 else (y 1).val; rw [if_neg (by decide)]; exact hq.symm)]
  rfl

/-! ## The windows' index maps and cuts, decided over the grid -/

/-- The mask row's block is always block (0, 0); the image's and the result's block at point `t` is block (t, 0). -/
theorem idx_facts : ∀ t : Fin cfg0.N, win0_0.index t (0 : Fin 2) = 0 ∧ win0_0.index t (1 : Fin 2) = 0
    ∧ win0_1.index t (0 : Fin 2) = win0_2.index t (0 : Fin 2) ∧ win0_1.index t (1 : Fin 2) = win0_2.index t (1 : Fin 2)
    ∧ win0_2.index t (0 : Fin 2) = t.val ∧ win0_2.index t (1 : Fin 2) = 0 :=
  (by decide +kernel : ∀ t : Fin grid0.N, _)

/-- The result's block at point `t` keeps all 8192 columns and the rows up to the matrix's end: 384 of them, or
    what is left of 4096. -/
theorem size_facts (t : Fin cfg0.N) : win0_2.xsize (grid0.coords t) (1 : Fin 2) = 8192
    ∧ t.val * 384 + win0_2.xsize (grid0.coords t) (0 : Fin 2) = min (t.val * 384 + 384) 4096 := by
  rcases fin_N0 t with rfl | rfl | rfl | rfl | rfl | rfl | rfl | rfl | rfl | rfl | rfl <;> decide +kernel

/-! ## What each point writes back -/

/-- The same with the column read off the entry itself. -/
theorem product_apply_col (v0 : Vec F S1x8192 .i32) (v6 : Vec F S384x8192 .f32) (y : S384x8192.Idx) :
    k0_pay1 v0 v6 y = FloatOps.mulf (v6 y) (keepWord (v0 (ix2 (0 : Fin 1) (y (1 : Fin 2))))) :=
  product_apply v0 v6 y (y (1 : Fin 2)) rfl

/-- Point `t` writes back its block of the entrywise product of the image rows with the mask row. -/
theorem flushed_eq (c : Dev nD) (t : Fin cfg0.N) :
    (dats m 0 c).flushed 2 t = ((cfg0.win 2).blk t).view.read (Elt F) (maskedRows (V m c main_v0) (V m c main_v2)) := by
  show (cfg0.win 2).cut (grid0.coords t) ((dats m 0 c).after 2 t) = _
  rw [after0_2]
  obtain ⟨e0, e1, e2, e3, e4, e5⟩ := idx_facts t
  funext j
  refine (product_apply_col (iblk m c 0 t) (imgBuf m c t) (win0_2.xinj (grid0.coords t) j)).trans ?_
  have hb : imgBuf m c t (win0_2.xinj (grid0.coords t) j) = iblk m c 1 t j := fill_at_rows (grid0.coords t) pad (iblk m c 1 t) j
  rw [hb]
  show FloatOps.mulf (V m c main_v0 (((cfg0.win 1).blk t).view.emb j))
      (keepWord (V m c main_v2 (((cfg0.win 0).blk t).view.emb (ix2 (0 : Fin 1) ((win0_2.xinj (grid0.coords t) j) (1 : Fin 2))))))
    = FloatOps.mulf (V m c main_v0 (((cfg0.win 2).blk t).view.emb j))
      (keepWord (V m c main_v2 (ix2 (0 : Fin 1) ((((cfg0.win 2).blk t).view.emb j) (1 : Fin 2)))))
  have key : ∀ a : Fin 2, win0_1.index t a = win0_2.index t a := fun a => match a with | ⟨0, _⟩ => e2 | ⟨1, _⟩ => e3
  have h1 : ((cfg0.win 1).blk t).view.emb j = ((cfg0.win 2).blk t).view.emb j := by
    funext a; apply Fin.ext
    show win0_1.index t a * S384x8192.size a + 1 * (j a).val = win0_2.index t a * S384x8192.size a + 1 * (j a).val
    rw [key a]
  have h0 : ((cfg0.win 0).blk t).view.emb (ix2 (0 : Fin 1) ((win0_2.xinj (grid0.coords t) j) (1 : Fin 2)))
      = ix2 (0 : Fin 1) ((((cfg0.win 2).blk t).view.emb j) (1 : Fin 2)) := by
    funext a; apply Fin.ext
    match a with
    | ⟨0, _⟩ => show win0_0.index t (0 : Fin 2) * 1 + 1 * 0 = 0; rw [e0]
    | ⟨1, _⟩ =>
      show win0_0.index t (1 : Fin 2) * 8192 + 1 * (j (1 : Fin 2)).val = win0_2.index t (1 : Fin 2) * 8192 + 1 * (j (1 : Fin 2)).val
      rw [e1, e5]
  rw [h0, h1]
  rfl

/-! ## The blocks cover the matrix -/

/-- An entry of the matrix is in point `t`'s block iff its row and column are within the block's part inside the matrix. -/
theorem mem_blk (t : Fin cfg0.N) (i : S4096x8192.Idx) :
    i ∈ ((cfg0.win 2).blk t).view.set ↔ ∀ a : Fin 2, win0_2.index t a * S384x8192.size a ≤ (i a).val
      ∧ (i a).val < win0_2.index t a * S384x8192.size a + win0_2.xsize (grid0.coords t) a := by
  show i ∈ ((View.whole main_v3).slice (win0_2.rect t)).set ↔ _
  rw [View.set_slice_whole, Rect.mem_set_unit]
  exact Iff.rfl

/-- Row r lies in the block of point r / 384. -/
theorem cover (i : S4096x8192.Idx) : ∃ t : Fin cfg0.N, (cfg0.win 2).flush t = true ∧ i ∈ ((cfg0.win 2).blk t).view.set := by
  have hi0 : (i 0).val < 4096 := (i 0).isLt
  have hi1 : (i 1).val < 8192 := (i 1).isLt
  have hN : grid0.N = 11 := N_0
  obtain ⟨t, ht⟩ : ∃ t : Fin cfg0.N, t.val = (i 0).val / 384 := ⟨⟨(i 0).val / 384, by show _ < grid0.N; omega⟩, rfl⟩
  refine ⟨t, flush0_2 t, ?_⟩
  rw [mem_blk]
  obtain ⟨e0, e1, e2, e3, e4, e5⟩ := idx_facts t
  obtain ⟨s1, s0⟩ := size_facts t
  intro a
  match a with
  | ⟨0, _⟩ =>
    show win0_2.index t (0 : Fin 2) * 384 ≤ (i 0).val ∧ (i 0).val < win0_2.index t (0 : Fin 2) * 384 + win0_2.xsize (grid0.coords t) (0 : Fin 2)
    omega
  | ⟨1, _⟩ =>
    show win0_2.index t (1 : Fin 2) * 8192 ≤ (i 1).val ∧ (i 1).val < win0_2.index t (1 : Fin 2) * 8192 + win0_2.xsize (grid0.coords t) (1 : Fin 2)
    omega

/-- The matrix after the run: the image rows times the mask row, entry by entry. -/
theorem final (c : Dev nD) : (dats m 0 c).arrAt 2 cfg0.N = maskedRows (V m c main_v0) (V m c main_v2) :=
  (dats m 0 c).arrAt_eq_of_cover 2 _ (fun t _ => flushed_eq m c t) cover

end Cert.KernelIdeal.KValue

end
-- ==== Proof.KernelResult.lean ====
/-
  The masking kernel's result, as the one function of its arguments the reference also computes.

  Before the region the image is re-laid as 4096 rows of 8192 columns and the bits as a row of 32-bit words; after
  it the matrix is re-laid as the result.  Re-laying keeps row-major positions: entry (a, b, c, k) of the image is
  entry ((a * 16 + b) * 8 + c, k) of the matrix.  A bit widened to a word differs from zero exactly when it is set.
-/
import proofs.«147102_g21311627723004_cont_8to1_607_5_alg».proof.Proof.KernelValue

set_option maxRecDepth 16384

noncomputable section

namespace Cert.KernelIdeal.KResult

open Cert.KernelIdeal Cert.KernelIdeal.Gen Cert.KernelIdeal.Body Cert.KernelIdeal.KValue Cert.MaskSpec
open Idealize.ShloMosaic Idealize.ShloMosaic.TcCoe Idealize.SL.Sem Idealize.ShloMosaic.ValueIdx
open Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The arrays the region finds -/

/-- The image as the region finds it: the argument re-laid as a matrix. -/
theorem entry_image (c : Dev nD) : (V m c main_v0 : S4096x8192.Idx → Elt F .f32)
    = shapeCast S4096x8192 (m ((c : Thread nD τ).loc main_arg0)) shapeCasts_S32x16x8x8192_S4096x8192 := by
  show StableHlo.after hostOps0 (fun b => m (c, b)) (Proc.devRef .tc main_v0) = _
  after_results
  rfl

/-- The mask row as the region finds it: the bits re-laid as a row and widened to words. -/
theorem entry_mask (c : Dev nD) : (V m c main_v2 : S1x8192.Idx → Elt F .i32)
    = extui 32 (shapeCast S1x8192 (m ((c : Thread nD τ).loc main_arg1)) shapeCasts_S8192_S1x8192) natLt_1_32 := by
  show StableHlo.after hostOps0 (fun b => m (c, b)) (Proc.devRef .tc main_v2) = _
  after_results
  rfl

/-! ## The line after the region -/

/-- The result is the matrix the pipeline wrote, re-laid. -/
theorem tail_result (c : Dev nD) : Pipeline.afterTail₀ cfgs (dats m) 0 (V0 m) [hostOps1] c main_v4
    = shapeCast S32x16x8x8192 ((dats m 0 c).arrAt 2 cfg0.N) shapeCasts_S4096x8192_S32x16x8x8192 := by
  unfold Pipeline.afterTail₀
  show StableHlo.after hostOps1 _ (Proc.devRef .tc main_v4) = _
  after_results
  have hw := Pipeline.withArrays_arr spec0 launch0.win.arr_inj c (V0 m c) (fun w => (dats m 0 c).arrAt w cfg0.N) 2
  funext i
  show shapeCast S32x16x8x8192 (Pipeline.withArrays spec0 c (V0 m c) (fun w => (dats m 0 c).arrAt w cfg0.N)
      (Proc.devRef .tc (Pipeline.arrRef spec0 2))) shapeCasts_S4096x8192_S32x16x8x8192 i = _
  rw [hw]

/-! ## Re-laying keeps the entries -/

/-- The masked matrix of the re-laid arguments, re-laid back, is the masked image. -/
theorem relaid_eq (img : S32x16x8x8192.Idx → F .f32) (pruned : S8192.Idx → BitVec 1) :
    shapeCast S32x16x8x8192 (maskedRows (shapeCast S4096x8192 img shapeCasts_S32x16x8x8192_S4096x8192)
        (extui 32 (shapeCast S1x8192 pruned shapeCasts_S8192_S1x8192) natLt_1_32)) shapeCasts_S4096x8192_S32x16x8x8192
      = masked img pruned := by
  funext i
  obtain ⟨a, b, d, k, rfl⟩ : ∃ (a : Fin 32) (b : Fin 16) (d : Fin 8) (k : Fin 8192), i = ix4 a b d k :=
    ⟨i 0, i 1, i 2, i 3, eq_ix4 i⟩
  have hr : (a.val * 16 + b.val) * 8 + d.val < 4096 := by omega
  have hpos : (S4096x8192.rowMajor (ix2 (⟨(a.val * 16 + b.val) * 8 + d.val, hr⟩ : Fin 4096) k)).val
      = (S32x16x8x8192.rowMajor (ix4 a b d k)).val := by
    rw [Shape.rowMajor_val_two, Shape.rowMajor_val_four]; rfl
  rw [shapeCast_apply _ shapeCasts_S4096x8192_S32x16x8x8192 (ix4 a b d k)
    (ix2 (⟨(a.val * 16 + b.val) * 8 + d.val, hr⟩ : Fin 4096) k) hpos]
  show FloatOps.mulf (shapeCast S4096x8192 img shapeCasts_S32x16x8x8192_S4096x8192 (ix2 (⟨(a.val * 16 + b.val) * 8 + d.val, hr⟩ : Fin 4096) k))
      (keepWord ((shapeCast S1x8192 pruned shapeCasts_S8192_S1x8192 (ix2 (0 : Fin 1) k)).setWidth 32))
    = FloatOps.mulf (img (ix4 a b d k)) (keep (pruned (ix1 k)))
  rw [shapeCast_apply img shapeCasts_S32x16x8x8192_S4096x8192 (ix2 (⟨(a.val * 16 + b.val) * 8 + d.val, hr⟩ : Fin 4096) k)
      (ix4 a b d k) hpos.symm,
    shapeCast_apply pruned shapeCasts_S8192_S1x8192 (ix2 (0 : Fin 1) k) (ix1 k)
      (by rw [Shape.rowMajor_val_one, Shape.rowMajor_val_two]; show k.val = 0 * 8192 + k.val; omega),
    keepWord_widened]

/-! ## The run -/

/-- Every weakly fair execution of the kernel's program terminates with the result at the masked image and the
    arguments as launched. -/
theorem run : θ_run defs (onTc (τ := τ) (main (F := F))) ⟨m, fun _ => 0, ρ⟩ fun r => ∀ c : Dev nD,
      r.2.mem ((c : Thread nD τ).loc main_v4) = masked (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (by
          rw [tail_result, KValue.final, entry_image, entry_mask]
          exact relaid_eq _ _),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KResult

end
-- ==== Proof.RefValue.lean ====
/-
  The reference's result is the masked image.

  Read one operation at a time: the product of the image with the mask spread over the three leading axes, the
  mask of column k being the choice between the spread constants 0 and 1 by the bit of k.
-/
import proofs.«147102_g21311627723004_cont_8to1_607_5_alg».proof.Proof.Gen.ReferenceIdeal.Run
import proofs.«147102_g21311627723004_cont_8to1_607_5_alg».proof.Proof.Gen.ReferenceIdeal.Read
import proofs.«147102_g21311627723004_cont_8to1_607_5_alg».proof.Proof.Spec

noncomputable section

namespace Cert.ReferenceIdeal.RefValue

open Cert.ReferenceIdeal Cert.ReferenceIdeal.Gen Cert.ReferenceIdeal.Read Cert.MaskSpec
open Idealize.ShloMosaic Idealize.ShloMosaic.ValueIdx

variable {F : FTy → Type} [FloatOps F]

/-- The reference's last stage, entry by entry, is the image times the mask value of the entry's column. -/
theorem stage_eq (x0 : (⟨S32x16x8x8192, .f32⟩ : BufTy).Contents (Elt F)) (x1 : (⟨S8192, .i1⟩ : BufTy).Contents (Elt F)) :
    val_main_v5 (F := F) x0 x1 = masked x0 x1 := by
  funext i
  have hi : idx_main_v3 (idx_main_v4 i) = ix1 (i 3) := funext fun a => by match a with | ⟨0, _⟩ => rfl
  rw [val_main_v5_apply, val_main_v4_apply, val_main_v3_apply, val_main_v2_apply, val_main_v0_apply, val_main_v1_apply,
    val_main_cst_apply, val_main_cst_0_apply, hi]
  rfl

end Cert.ReferenceIdeal.RefValue

end
-- ==== Proof.lean ====
/-
  The masking kernel against its reference.

  Both programs compute, at every entry (a, b, c, k) of a 32 x 16 x 8 x 8192 image, the image's entry times the mask
  value of column k: 0 where the bit `pruned k` is set, 1 where it is not.  The kernel does it on the image viewed as
  4096 rows of 8192 columns, in eleven blocks of 384 rows of which the last overhangs the matrix by 128 rows; the
  reference spreads the mask row over the three leading axes and multiplies once.  The product is entrywise, so the
  rows a block holds past the matrix's end never reach the result; re-laying the image as a matrix and back keeps
  every entry; and a bit widened to a word differs from zero exactly when it is set.  No law of arithmetic on the
  extended reals is used: the two results are the same product of the same two factors at every entry, so the
  finiteness of the image is not needed.

  The three frames: the kernel's programs run to the end, fault nowhere and leave their arguments alone (the body
  and the pipeline's run, at the word-level and at the ideal instance alike); the reference is a straight line of
  host operations.  The idealization rewrote no operation, so there is nothing to preserve.
-/
import proofs.«147102_g21311627723004_cont_8to1_607_5_alg».proof.Defs
import proofs.«147102_g21311627723004_cont_8to1_607_5_alg».proof.Proof.Gen.Kernel
import proofs.«147102_g21311627723004_cont_8to1_607_5_alg».proof.Proof.Gen.KernelIdeal
import proofs.«147102_g21311627723004_cont_8to1_607_5_alg».proof.Proof.Gen.ReferenceIdeal
import proofs.«147102_g21311627723004_cont_8to1_607_5_alg».proof.Proof.Gen.Pre_finite_inputs
import proofs.«147102_g21311627723004_cont_8to1_607_5_alg».proof.Proof.BodyBits
import proofs.«147102_g21311627723004_cont_8to1_607_5_alg».proof.Proof.KernelResult
import proofs.«147102_g21311627723004_cont_8to1_607_5_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere, and leaves its arguments as launched. -/
theorem frame_kernel : Cert.frame_Kernel := fun m ρ _ => Cert.Kernel.Body.frame m ρ

/-- So does the kernel read at the extended reals. -/
theorem frame_kernelIdeal : Cert.frame_KernelIdeal := fun m ρ _ => Cert.KernelIdeal.Body.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the image and on the bits, both programs end with the masked image. -/
theorem algebraic : Cert.algebraic_KernelIdeal_ReferenceIdeal := by
  intro m ρ m' ρ' _ hagree
  refine ⟨_, Cert.KernelIdeal.KResult.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v5_eq, Cert.ReferenceIdeal.RefValue.stage_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
